-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1600 : Shape := ⟨2, ![1024, 1600]⟩
abbrev S64x1600 : Shape := ⟨2, ![64, 1600]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S1024x1600 : S_.BroadcastsInDim S1024x1600 (![] : Fin 0 → Fin S1024x1600.rank)
  reducesTo_S1024x1600_S_d0_1 : S1024x1600.ReducesTo [0, 1] S_
  h_S_ : 0 < S_.numel
  bcast_S_S64x1600 : S_.BroadcastsInDim S64x1600 (![] : Fin 0 → Fin S64x1600.rank)
  reducesTo_S64x1600_S_d0_1 : S64x1600.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32x64 .f32) (main_arg5 : FVec F S32 .f32) (main_arg6 : FVec F S1x32 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1x32 .f32 := Host.absf main_arg6
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  fn_part2 (F := F) main_arg7 main_v33

def fn {F : FTy → Type} [FloatOps F] (main_arg0 : FVec F S1024x1600 .f32) (main_arg1 : FVec F S1024x1600 .f32) (main_arg2 : FVec F S64x1600 .f32) (main_arg3 : FVec F S64 .f32) (main_arg4 : FVec F S32x64 .f32) (main_arg5 : FVec F S32 .f32) (main_arg6 : FVec F S1x32 .f32) (main_arg7 : FVec F S1 .f32) : IVec S_ 1 :=
  let main_v0 : FVec F S1024x1600 .f32 := Host.absf main_arg0
  let main_cst : FVec F S_ .f32 := constant S_ .f32 0x7F800000#32
  let main_v1 : FVec F S1024x1600 .f32 := broadcastInDim S1024x1600 ![] bcast_S_S1024x1600 main_cst
  let main_v2 : IVec S1024x1600 1 := cmpf .olt main_v0 main_v1
  let main_c : IVec S_ 1 := constantI S_ 1 1#1
  let main_v3 : IVec S_ 1 := (fun x v => Host.reduce IntOp.andi x v reducesTo_S1024x1600_S_d0_1 h_S_) main_v2 main_c
  let main_v4 : FVec F S1024x1600 .f32 := Host.absf main_arg1
  let main_cst_0 : FVec F S_ .f32 := constant S_ .f32 0x7F800000#32
  let main_v5 : FVec F S1024x1600 .f32 := broadcastInDim S1024x1600 ![] bcast_S_S1024x1600 main_cst_0
  let main_v6 : IVec S1024x1600 1 := cmpf .olt main_v4 main_v5
  let main_c_1 : IVec S_ 1 := constantI S_ 1 1#1
  let main_v7 : IVec S_ 1 := (fun x v => Host.reduce IntOp.andi x v reducesTo_S1024x1600_S_d0_1 h_S_) main_v6 main_c_1
  let main_v8 : IVec S_ 1 := andi main_v3 main_v7
  let main_v9 : FVec F S64x1600 .f32 := Host.absf main_arg2
  let main_cst_2 : FVec F S_ .f32 := constant S_ .f32 0x7F800000#32
  let main_v10 : FVec F S64x1600 .f32 := broadcastInDim S64x1600 ![] bcast_S_S64x1600 main_cst_2
  let main_v11 : IVec S64x1600 1 := cmpf .olt main_v9 main_v10
  let main_c_3 : IVec S_ 1 := constantI S_ 1 1#1
  let main_v12 : IVec S_ 1 := (fun x v => Host.reduce IntOp.andi x v reducesTo_S64x1600_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S1024x1600 : Shape := ⟨2, ![1024, 1600]⟩
abbrev S64x1600 : Shape := ⟨2, ![64, 1600]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1024x64 : Shape := ⟨2, ![1024, 64]⟩
abbrev S64x32 : Shape := ⟨2, ![64, 32]⟩
abbrev S1x64 : Shape := ⟨2, ![1, 64]⟩
abbrev S1x1 : Shape := ⟨2, ![1, 1]⟩
abbrev S1024x1024 : Shape := ⟨2, ![1024, 1024]⟩
abbrev S128x64 : Shape := ⟨2, ![128, 64]⟩
abbrev S256x64 : Shape := ⟨2, ![256, 64]⟩
abbrev S128x256 : Shape := ⟨2, ![128, 256]⟩
abbrev S128x1x64 : Shape := ⟨3, ![128, 1, 64]⟩
abbrev S1x256x64 : Shape := ⟨3, ![1, 256, 64]⟩
abbrev S128x256x64 : Shape := ⟨3, ![128, 256, 64]⟩
abbrev S1x1x64 : Shape := ⟨3, ![1, 1, 64]⟩
abbrev S32768x64 : Shape := ⟨2, ![32768, 64]⟩
abbrev S32768x32 : Shape := ⟨2, ![32768, 32]⟩
abbrev S128x256x32 : Shape := ⟨3, ![128, 256, 32]⟩
abbrev S1x1x32 : Shape := ⟨3, ![1, 1, 32]⟩

abbrev nBuf : Space → Nat
  | .hbm => 19
  | .vmem => 11
  | .smem => 0
  | _ => 0

abbrev bufTy : (tb : Table) → Fin (tcTables nBuf tb) → BufTy
  | .hbm, ⟨0, _⟩ => ⟨S1024x1600, .f32⟩
  | .hbm, ⟨1, _⟩ => ⟨S1024x1600, .f32⟩
  | .hbm, ⟨2, _⟩ => ⟨S64x1600, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1x32, .f32⟩
  | .hbm, ⟨7, _⟩ => ⟨S1, .f32⟩
  | .hbm, ⟨8, _⟩ => ⟨S1024x1600, .bf16⟩
  | .hbm, ⟨9, _⟩ => ⟨S1024x1600, .bf16⟩
  | .hbm, ⟨10, _⟩ => ⟨S64x1600, .bf16⟩
  | .hbm, ⟨11, _⟩ => ⟨S1024x64, .f32⟩
  | .hbm, ⟨12, _⟩ => ⟨S1024x64, .f32⟩
  | .hbm, ⟨13, _⟩ => ⟨S64x32, .f32⟩
  | .hbm, ⟨14, _⟩ => ⟨S64x32, .bf16⟩
  | .hbm, ⟨15, _⟩ => ⟨S1x64, .f32⟩
  | .hbm, ⟨16, _⟩ => ⟨S1x32, .f32⟩
  | .hbm, ⟨17, _⟩ => ⟨S1x1, .f32⟩
  | .hbm, ⟨18, _⟩ => ⟨S1024x1024, .f32⟩
  | .local _ .vmem, ⟨0, _⟩ => ⟨S128x64, .f32⟩
  | .local _ .vmem, ⟨1, _⟩ => ⟨S128x64, .f32⟩
  | .local _ .vmem, ⟨2, _⟩ => ⟨S256x64, .f32⟩
  | .local _ .vmem, ⟨3, _⟩ => ⟨S256x64, .f32⟩
  | .local _ .vmem, ⟨4, _⟩ => ⟨S1x64, .f32⟩
  | .local _ .vmem, ⟨5, _⟩ => ⟨S64x32, .bf16⟩
  | .local _ .vmem, ⟨6, _⟩ => ⟨S1x32, .f32⟩
  | .local _ .vmem, ⟨7, _⟩ => ⟨S1x32, .f32⟩
  | .local _ .vmem, ⟨8, _⟩ => ⟨S1x1, .f32⟩
  | .local _ .vmem, ⟨9, _⟩ => ⟨S128x256, .f32⟩
  | .local _ .vmem, ⟨10, _⟩ => ⟨S128x256, .f32⟩
  | _, _ => ⟨S1024x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  transposes_S32x64_S64x32_1_0 : S32x64.Transposes [1, 0] S64x32
  shapeCasts_S64_S1x64 : S64.ShapeCasts S1x64
  shapeCasts_S32_S1x32 : S32.ShapeCasts S1x32
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S128x64_S128x1x64 : S128x64.ShapeCasts S128x1x64
  shapeCasts_S256x64_S1x256x64 : S256x64.ShapeCasts S1x256x64
  broadcasts_S128x1x64_S128x256x64 : S128x1x64.Broadcasts S128x256x64
  broadcasts_S1x256x64_S128x256x64 : S1x256x64.Broadcasts S128x256x64
  shapeCasts_S1x64_S1x1x64 : S1x64.ShapeCasts S1x1x64
  broadcasts_S1x1x64_S128x256x64 : S1x1x64.Broadcasts S128x256x64
  shapeCasts_S128x256x64_S32768x64 : S128x256x64.ShapeCasts S32768x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S32768x32_S128x256x32 : S32768x32.ShapeCasts S128x256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S1x1x32 : S1x32.ShapeCasts S1x1x32
  broadcasts_S1x1x32_S128x256x32 : S1x1x32.Broadcasts S128x256x32
  reduces_S128x256x32_S128x256 : S128x256x32.Reduces [2] S128x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x256 : S1x1.Broadcasts S128x256
  inb_S128x256_S128x256_0_0 : ∀ a, (![0, 0] : Fin 2 → Nat) a + S128x256.size a ≤ S128x256.size a
  h_S128x256 : 0 < S128x256.numel
  dot_S1024x1600_S64x1600_S1024x64_1_1_0_0_n_n_wf : DotDims.WF S1024x1600 S64x1600 S1024x64 [1] [1] [0] [0] [] []
  dot_S32768x64_S64x32_S32768x32_1_0_0_1_n_n_wf : DotDims.WF S32768x64 S64x32 S32768x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S1024x64.size a
  hwx0_1 : ∀ i : grid0.Coords, EltTy.bits .f32 = 32 ∨ (Rect.block (s := S1024x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .bf16 = 32 ∨ (Rect.block (s := S64x32) S64x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S1024x1024.size a
  hwx0_7 : ∀ i : grid0.Coords, EltTy.bits .f32 = 32 ∨ (Rect.block (s := S1024x1024) S128x256.size (cc0_transform_7 i) (hinb0_7 i)).WholeWords (EltTy.packing .f32)

variable [Facts₀]

def dot_S1024x1600_S64x1600_S1024x64_1_1_0_0_n_n : DotDims S1024x1600 S64x1600 S1024x64 where
  lhsContracting := [1]
  rhsContracting := [1]
  lhsNonContracting := [0]
  rhsNonContracting := [0]
  lhsBatch := []
  rhsBatch := []
  wf := dot_S1024x1600_S64x1600_S1024x64_1_1_0_0_n_n_wf
def dot_S32768x64_S64x32_S32768x32_1_0_0_1_n_n : DotDims S32768x64 S64x32 S32768x32 where
  lhsContracting := [1]
  rhsContracting := [0]
  lhsNonContracting := [0]
  rhsNonContracting := [1]
  lhsBatch := []
  rhsBatch := []
  wf := dot_S32768x64_S64x32_S32768x32_1_0_0_1_n_n_wf

abbrev win0_0 : Pipeline.Window sig grid0 :=
  Pipeline.Window.ofSpec (Memref.whole main_v3) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x1600 : Shape := ⟨2, ![1024, 1600]⟩
abbrev S64x1600 : Shape := ⟨2, ![64, 1600]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1024x64 : Shape := ⟨2, ![1024, 64]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1x1x64 : Shape := ⟨3, ![1, 1, 64]⟩
abbrev S_ : Shape := ⟨0, ![]⟩
abbrev S1024x1024x32 : Shape := ⟨3, ![1024, 1024, 32]⟩
abbrev S1x1x32 : Shape := ⟨3, ![1, 1, 32]⟩
abbrev S1024x1024x1 : Shape := ⟨3, ![1024, 1024, 1]⟩
abbrev S1x1x1 : Shape := ⟨3, ![1, 1, 1]⟩
abbrev S1024x1024 : Shape := ⟨2, ![1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1024x1600, .f32⟩
  | .hbm, ⟨1, _⟩ => ⟨S1024x1600, .f32⟩
  | .hbm, ⟨2, _⟩ => ⟨S64x1600, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1x32, .f32⟩
  | .hbm, ⟨7, _⟩ => ⟨S1, .f32⟩
  | .hbm, ⟨8, _⟩ => ⟨S1024x64, .f32⟩
  | .hbm, ⟨9, _⟩ => ⟨S1024x64, .f32⟩
  | .hbm, ⟨10, _⟩ => ⟨S1024x1x64, .f32⟩
  | .hbm, ⟨11, _⟩ => ⟨S1x1024x64, .f32⟩
  | .hbm, ⟨12, _⟩ => ⟨S1024x1024x64, .f32⟩
  | .hbm, ⟨13, _⟩ => ⟨S1024x1024x64, .f32⟩
  | .hbm, ⟨14, _⟩ => ⟨S1024x1024x64, .f32⟩
  | .hbm, ⟨15, _⟩ => ⟨S1x1x64, .f32⟩
  | .hbm, ⟨16, _⟩ => ⟨S1024x1024x64, .f32⟩
  | .hbm, ⟨17, _⟩ => ⟨S1024x1024x64, .f32⟩
  | .hbm, ⟨18, _⟩ => ⟨S_, .f32⟩
  | .hbm, ⟨19, _⟩ => ⟨S1024x1024x64, .f32⟩
  | .hbm, ⟨20, _⟩ => ⟨S1024x1024x64, .f32⟩
  | .hbm, ⟨21, _⟩ => ⟨S1024x1024x32, .f32⟩
  | .hbm, ⟨22, _⟩ => ⟨S1x1x32, .f32⟩
  | .hbm, ⟨23, _⟩ => ⟨S1024x1024x32, .f32⟩
  | .hbm, ⟨24, _⟩ => ⟨S1024x1024x32, .f32⟩
  | .hbm, ⟨25, _⟩ => ⟨S_, .f32⟩
  | .hbm, ⟨26, _⟩ => ⟨S1024x1024x32, .f32⟩
  | .hbm, ⟨27, _⟩ => ⟨S1024x1024x32, .f32⟩
  | .hbm, ⟨28, _⟩ => ⟨S1024x1024x1, .f32⟩
  | .hbm, ⟨29, _⟩ => ⟨S1x1x1, .f32⟩
  | .hbm, ⟨30, _⟩ => ⟨S1024x1024x1, .f32⟩
  | .hbm, ⟨31, _⟩ => ⟨S1024x1024x1, .f32⟩
  | .hbm, ⟨32, _⟩ => ⟨S_, .f32⟩
  | .hbm, ⟨33, _⟩ => ⟨S1024x1024x1, .f32⟩
  | .hbm, ⟨34, _⟩ => ⟨S1024x1024x1, .f32⟩
  | .hbm, ⟨35, _⟩ => ⟨S1024x1024, .f32⟩
  | _, _ => ⟨S1024x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_cst : Ref sig .tc := ⟨.hbm, 32, rfl⟩
abbrev main_call2_v0 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S32_S1x1x32_2 : S32.BroadcastsInDim S1x1x32 (![2] : Fin 1 → Fin S1x1x32.rank)
  bcast_S1x1x32_S1024x1024x32_0_1_2 : S1x1x32.BroadcastsInDim S1024x1024x32 (![0, 1, 2] : Fin 3 → Fin S1024x1024x32.rank)
  bcast_S_S1024x1024x32 : S_.BroadcastsInDim S1024x1024x32 (![] : Fin 0 → Fin S1024x1024x32.rank)
  bcast_S1_S1x1x1_2 : S1.BroadcastsInDim S1x1x1 (![2] : Fin 1 → Fin S1x1x1.rank)
  bcast_S1x1x1_S1024x1024x1_0_1_2 : S1x1x1.BroadcastsInDim S1024x1024x1 (![0, 1, 2] : Fin 3 → Fin S1024x1024x1.rank)
  bcast_S_S1024x1024x1 : S_.BroadcastsInDim S1024x1024x1 (![] : Fin 0 → Fin S1024x1024x1.rank)
  shapeCasts_S1024x1024x1_S1024x1024 : S1024x1024x1.ShapeCasts S1024x1024
  dot_S1024x1600_S64x1600_S1024x64_1_1_0_0_n_n_wf : DotDims.WF S1024x1600 S64x1600 S1024x64 [1] [1] [0] [0] [] []
  dot_S1024x1024x64_S32x64_S1024x1024x32_2_1_01_0_n_n_wf : DotDims.WF S1024x1024x64 S32x64 S1024x1024x32 [2] [1] [0, 1] [0] [] []
  dot_S1024x1024x32_S1x32_S1024x1024x1_2_1_01_0_n_n_wf : DotDims.WF S1024x1024x32 S1x32 S1024x1024x1 [2] [1] [0, 1] [0] [] []

variable [Facts₀]

def dot_S1024x1600_S64x1600_S1024x64_1_1_0_0_n_n : DotDims S1024x1600 S64x1600 S1024x64 where
  lhsContracting := [1]
  rhsContracting := [1]
  lhsNonContracting := [0]
  rhsNonContracting := [0]
  lhsBatch := []
  rhsBatch := []
  wf := dot_S1024x1600_S64x1600_S1024x64_1_1_0_0_n_n_wf
def dot_S1024x1024x64_S32x64_S1024x1024x32_2_1_01_0_n_n : DotDims S1024x1024x64 S32x64 S1024x1024x32 where
  lhsContracting := [2]
  rhsContracting := [1]
  lhsNonContracting := [0, 1]
  rhsNonContracting := [0]
  lhsBatch := []
  rhsBatch := []
  wf := dot_S1024x1024x64_S32x64_S1024x1024x32_2_1_01_0_n_n_wf
def dot_S1024x1024x32_S1x32_S1024x1024x1_2_1_01_0_n_n : DotDims S1024x1024x32 S1x32 S1024x1024x1 where
  lhsContracting := [2]
  rhsContracting := [1]
  lhsNonContracting := [0, 1]
  rhsNonContracting := [0]
  lhsBatch := []
  rhsBatch := []
  wf := dot_S1024x1024x32_S1x32_S1024x1024x1_2_1_01_0_n_n_wf

class Facts : Prop extends Facts₀ where

variable [Facts]
-- ==== Proof.Layers.lean ====
/-
  The function both programs compute.

  Two batches of rows `a`, `b` (1024 rows of 1600 entries each) are projected by one weight matrix `W1`
  (64 rows of 1600 entries): `pa n h = Σ_d a(n,d)·W1(h,d)`, `pb m h = Σ_d b(m,d)·W1(h,d)`. Every pair (n, m) of
  a row of `a` and a row of `b` is then scored by three layers on the 64 numbers `pa n h − pb m h`:
  a bias and a positive part; a 64 → 32 linear layer with a bias and a positive part; a 32 → 1 linear layer
  with a bias and a positive part. Everything is on the extended reals, where a change of float format is the
  identity, so the function is stated once and read at the pair (n, m).

  The positive part is the larger of its argument and the value of the all-zero f32 word; the word is kept as a
  word: both programs spell it so, and it is never evaluated.
-/
import Idealize.ShloMosaic.Lib.ValueIdx
import Idealize.ShloMosaic.PureOps.Ideal

noncomputable section

open scoped BigOperators

namespace Cert.PairMlp

open Idealize.ShloMosaic Idealize.ShloMosaic.ValueIdx

/-- The positive part: the larger of `x` and the value of the all-zero f32 word. -/
def pos (x : EReal) : EReal := max x (Ideal.ofBits .f32 0x00000000#32)

/-- The three layers on one pair of projected rows `u`, `v` (64 numbers each): `b1`, `b2`, `b3` the biases,
    `w2 h k` the weight from hidden unit `h` of the first layer to unit `k` of the second, `w3 k` the weight of
    unit `k` in the score. -/
def mlp (u v b1 : Fin 64 → EReal) (w2 : Fin 64 → Fin 32 → EReal) (b2 w3 : Fin 32 → EReal) (b3 : EReal) : EReal :=
  pos ((∑ k : Fin 32, pos ((∑ h : Fin 64, pos (u h - v h + b1 h) * w2 h k) + b2 k) * w3 k) + b3)

/-- Row `n` of `x` against row `h` of `w`: their inner product over the 1600 columns. -/
def proj (x : FVec Ideal ⟨2, ![1024, 1600]⟩ .f32) (w : FVec Ideal ⟨2, ![64, 1600]⟩ .f32) (n : Fin 1024) (h : Fin 64) : EReal :=
  ∑ d : Fin 1600, x (ix2 n d) * w (ix2 h d)

/-- The score of the pair (row `n` of `a`, row `m` of `b`). The second layer's weight `W2` is stored
    output-major (32 rows of 64), so the weight from unit `h` to unit `k` is its entry (k, h). -/
def score (a b : FVec Ideal ⟨2, ![1024, 1600]⟩ .f32) (W1 : FVec Ideal ⟨2, ![64, 1600]⟩ .f32) (b1 : FVec Ideal ⟨1, ![64]⟩ .f32)
    (W2 : FVec Ideal ⟨2, ![32, 64]⟩ .f32) (b2 : FVec Ideal ⟨1, ![32]⟩ .f32) (W3 : FVec Ideal ⟨2, ![1, 32]⟩ .f32)
    (b3 : FVec Ideal ⟨1, ![1]⟩ .f32) (n m : Fin 1024) : EReal :=
  mlp (proj a W1 n) (proj b W1 m) (fun h => b1 (ix1 h)) (fun h k => W2 (ix2 k h)) (fun k => b2 (ix1 k))
    (fun k => W3 (ix2 (0 : Fin 1) k)) (b3 (ix1 (0 : Fin 1)))

/-- The whole result: entry (n, m) is the score of the pair (n, m). -/
def G (a b : FVec Ideal ⟨2, ![1024, 1600]⟩ .f32) (W1 : FVec Ideal ⟨2, ![64, 1600]⟩ .f32) (b1 : FVec Ideal ⟨1, ![64]⟩ .f32)
    (W2 : FVec Ideal ⟨2, ![32, 64]⟩ .f32) (b2 : FVec Ideal ⟨1, ![32]⟩ .f32) (W3 : FVec Ideal ⟨2, ![1, 32]⟩ .f32)
    (b3 : FVec Ideal ⟨1, ![1]⟩ .f32) : FVec Ideal ⟨2, ![1024, 1024]⟩ .f32 :=
  fun i => score a b W1 b1 W2 b2 W3 b3 (i 0) (i 1)

theorem G_apply (a b : FVec Ideal ⟨2, ![1024, 1600]⟩ .f32) (W1 : FVec Ideal ⟨2, ![64, 1600]⟩ .f32) (b1 : FVec Ideal ⟨1, ![64]⟩ .f32)
    (W2 : FVec Ideal ⟨2, ![32, 64]⟩ .f32) (b2 : FVec Ideal ⟨1, ![32]⟩ .f32) (W3 : FVec Ideal ⟨2, ![1, 32]⟩ .f32)
    (b3 : FVec Ideal ⟨1, ![1]⟩ .f32) (n m : Fin 1024) :
    G a b W1 b1 W2 b2 W3 b3 (ix2 n m) = score a b W1 b1 W2 b2 W3 b3 n m := rfl

end Cert.PairMlp

end
-- ==== Proof.LibCube.lean ====
/-
  Rank-three blocks read at an entry.

  A kernel that works on a batch of matrices keeps its per-row quantities as columns [A, B, 1] or rows
  [A, 1, B] and spreads them over [A, B, C] blocks; it sums a block along its last axis, or along its middle
  one; the host sums an [A, B, C] array over both trailing axes at once. Each lemma here reads one such
  operation at an entry named by its coordinates: the entry of the operand it is, or the finite sum over
  the coordinates of the summed axes, for any extents A, B, C.
-/
import Idealize.ShloMosaic.Lib.Pipeline.Value
import Idealize.ShloMosaic.Lib.ValueIdx
import Idealize.ShloMosaic.PureOps.Ideal.Laws

noncomputable section

namespace Cert.Lib.Cube

open Idealize.ShloMosaic Idealize.ShloMosaic.ValueIdx

variable {α : Type} {A B C : Nat}

/-! ## Casts between a matrix and a column or a row of it -/

/-- An [A, B] matrix viewed as [A, B, 1]: entry (r, p, 0) is entry (r, p). -/
theorem cast_col (v : (⟨2, ![A, B]⟩ : Shape).Idx → α) (h : (⟨2, ![A, B]⟩ : Shape).ShapeCasts ⟨3, ![A, B, 1]⟩)
    (r : Fin A) (p : Fin B) (z : Fin 1) : shapeCast ⟨3, ![A, B, 1]⟩ v h (ix3 r p z) = v (ix2 r p) :=
  shapeCast_apply v h (ix3 r p z) (ix2 r p) (by
    have hz : z.val = 0 := by have := z.isLt; omega
    rw [Shape.rowMajor_val_two, Shape.rowMajor_val_three]
    show r.val * B + p.val = (r.val * B + p.val) * 1 + z.val
    rw [hz, Nat.mul_one, Nat.add_zero])

/-- An [A, B] matrix viewed as [A, 1, B]: entry (r, 0, q) is entry (r, q). -/
theorem cast_row (v : (⟨2, ![A, B]⟩ : Shape).Idx → α) (h : (⟨2, ![A, B]⟩ : Shape).ShapeCasts ⟨3, ![A, 1, B]⟩)
    (r : Fin A) (z : Fin 1) (q : Fin B) : shapeCast ⟨3, ![A, 1, B]⟩ v h (ix3 r z q) = v (ix2 r q) :=
  shapeCast_apply v h (ix3 r z q) (ix2 r q) (by
    have hz : z.val = 0 := by have := z.isLt; omega
    rw [Shape.rowMajor_val_two, Shape.rowMajor_val_three]
    show r.val * B + q.val = (r.val * 1 + z.val) * B + q.val
    rw [hz, Nat.mul_one, Nat.add_zero])

/-- A [B, C] matrix viewed as [1, B, C]: entry (0, p, q) is entry (p, q). -/
theorem cast_slab (v : (⟨2, ![B, C]⟩ : Shape).Idx → α) (h : (⟨2, ![B, C]⟩ : Shape).ShapeCasts ⟨3, ![1, B, C]⟩)
    (z : Fin 1) (p : Fin B) (q : Fin C) : shapeCast ⟨3, ![1, B, C]⟩ v h (ix3 z p q) = v (ix2 p q) :=
  shapeCast_apply v h (ix3 z p q) (ix2 p q) (by
    have hz : z.val = 0 := by have := z.isLt; omega
    rw [Shape.rowMajor_val_two, Shape.rowMajor_val_three]
    show p.val * C + q.val = (z.val * B + p.val) * C + q.val
    rw [hz, Nat.zero_mul, Nat.zero_add])

/-- The transpose of the two trailing axes of a column [A, B, 1] is the row [A, 1, B]. -/
theorem transpose_col (v : (⟨3, ![A, B, 1]⟩ : Shape).Idx → α)
    (h : (⟨3, ![A, B, 1]⟩ : Shape).Transposes [0, 2, 1] ⟨3, ![A, 1, B]⟩) (r : Fin A) (z : Fin 1) (q : Fin B) :
    transpose ⟨3, ![A, 1, B]⟩ [0, 2, 1] v h (ix3 r z q) = v (ix3 r q z) :=
  transpose_apply [0, 2, 1] v h (ix3 r z q) (ix3 r q z) (fun b => match b with
    | ⟨0, _⟩ => rfl
    | ⟨1, _⟩ => rfl
    | ⟨2, _⟩ => rfl)

/-! ## Columns, rows and slabs spread over a block -/

/-- A column [A, B, 1] repeated along the last axis. -/
theorem spread_col (v : (⟨3, ![A, B, 1]⟩ : Shape).Idx → α) (h : (⟨3, ![A, B, 1]⟩ : Shape).Broadcasts ⟨3, ![A, B, C]⟩)
    (r : Fin A) (p : Fin B) (q : Fin C) : broadcastTo ⟨3, ![A, B, C]⟩ v h (ix3 r p q) = v (ix3 r p (0 : Fin 1)) :=
  broadcastTo_apply v h (ix3 r p q) (ix3 r p (0 : Fin 1)) (fun a => match a with
    | ⟨0, _⟩ => by
        show r.val = if A = 1 then 0 else r.val
        split
        · have := r.isLt; omega
        · rfl
    | ⟨1, _⟩ => by
        show p.val = if B = 1 then 0 else p.val
        split
        · have := p.isLt; omega
        · rfl
    | ⟨2, _⟩ => by show 0 = if (1 : Nat) = 1 then 0 else q.val; rw [if_pos rfl])

/-- A row [A, 1, C] repeated along the middle axis. -/
theorem spread_row (v : (⟨3, ![A, 1, C]⟩ : Shape).Idx → α) (h : (⟨3, ![A, 1, C]⟩ : Shape).Broadcasts ⟨3, ![A, B, C]⟩)
    (r : Fin A) (p : Fin B) (q : Fin C) : broadcastTo ⟨3, ![A, B, C]⟩ v h (ix3 r p q) = v (ix3 r (0 : Fin 1) q) :=
  broadcastTo_apply v h (ix3 r p q) (ix3 r (0 : Fin 1) q) (fun a => match a with
    | ⟨0, _⟩ => by
        show r.val = if A = 1 then 0 else r.val
        split
        · have := r.isLt; omega
        · rfl
    | ⟨1, _⟩ => by show 0 = if (1 : Nat) = 1 then 0 else p.val; rw [if_pos rfl]
    | ⟨2, _⟩ => by
        show q.val = if C = 1 then 0 else q.val
        split
        · have := q.isLt; omega
        · rfl)

/-- A slab [1, B, C] repeated along the leading axis. -/
theorem spread_slab (v : (⟨3, ![1, B, C]⟩ : Shape).Idx → α) (h : (⟨3, ![1, B, C]⟩ : Shape).Broadcasts ⟨3, ![A, B, C]⟩)
    (r : Fin A) (p : Fin B) (q : Fin C) : broadcastTo ⟨3, ![A, B, C]⟩ v h (ix3 r p q) = v (ix3 (0 : Fin 1) p q) :=
  broadcastTo_apply v h (ix3 r p q) (ix3 (0 : Fin 1) p q) (fun a => match a with
    | ⟨0, _⟩ => by show 0 = if (1 : Nat) = 1 then 0 else r.val; rw [if_pos rfl]
    | ⟨1, _⟩ => by
        show p.val = if B = 1 then 0 else p.val
        split
        · have := p.isLt; omega
        · rfl
    | ⟨2, _⟩ => by
        show q.val = if C = 1 then 0 else q.val
        split
        · have := q.isLt; omega
        · rfl)

/-- A column [A, 1] repeated along B lanes. -/
theorem spread_col2 (v : (⟨2, ![A, 1]⟩ : Shape).Idx → α) (h : (⟨2, ![A, 1]⟩ : Shape).Broadcasts ⟨2, ![A, B]⟩)
    (r : Fin A) (p : Fin B) : broadcastTo ⟨2, ![A, B]⟩ v h (ix2 r p) = v (ix2 r (0 : Fin 1)) :=
  broadcastTo_apply v h (ix2 r p) (ix2 r (0 : Fin 1)) (fun a => match a with
    | ⟨0, _⟩ => by
        show r.val = if A = 1 then 0 else r.val
        split
        · have := r.isLt; omega
        · rfl
    | ⟨1, _⟩ => by show 0 = if (1 : Nat) = 1 then 0 else p.val; rw [if_pos rfl])

/-! ## Lane numbers -/

/-- The lane number along the last axis of a matrix. -/
theorem iota_lane (κ : Kind) (h : (⟨2, ![A, B]⟩ : Shape).Iotas κ 32 [1]) (r : Fin A) (p : Fin B) :
    iota κ ⟨2, ![A, B]⟩ 32 [1] h (ix2 r p) = BitVec.ofNat 32 p.val :=
  iota_single_apply κ ⟨2, ![A, B]⟩ 32 1 h (ix2 r p)

/-- The row number of a matrix. -/
theorem iota_row (κ : Kind) (h : (⟨2, ![A, B]⟩ : Shape).Iotas κ 32 [0]) (r : Fin A) (p : Fin B) :
    iota κ ⟨2, ![A, B]⟩ 32 [0] h (ix2 r p) = BitVec.ofNat 32 r.val :=
  iota_single_apply κ ⟨2, ![A, B]⟩ 32 0 h (ix2 r p)

/-! ## Sums along an axis, on the extended reals -/

/-- The sum of an f32 block along its last axis, read at (r, p): the sum over q of the entries (r, p, q). -/
theorem sum_last (src : FVec Ideal ⟨3, ![A, B, C]⟩ .f32) (h : (⟨3, ![A, B, C]⟩ : Shape).Reduces [2] ⟨2, ![A, B]⟩)
    (hφ : FTy.f32 = FTy.f32 ∨ FTy.f32 = FTy.bf16) (hacc : (0x00000000#32 : BitVec 32) = 0x00000000#32) (r : Fin A) (p : Fin B) :
    multiReduction .add [2] ⟨2, ![A, B]⟩ src 0x00000000#32 h hφ hacc (ix2 r p) = ∑ q : Fin C, src (ix3 r p q) := by
  refine (Ideal.multiReduction_add_single src 0x00000000#32 h hφ hacc (ix2 r p)).trans ?_
  exact Finset.sum_congr rfl fun q _ => congrArg src (funext fun a => Fin.ext (by
    match a with
    | ⟨0, _⟩ => rfl
    | ⟨1, _⟩ => rfl
    | ⟨2, _⟩ => rfl))

/-- The sum of an f32 column block [A, B, 1] along its middle axis, read at (r, 0): the sum over p of the
    entries (r, p, 0). -/
theorem sum_mid (src : FVec Ideal ⟨3, ![A, B, 1]⟩ .f32) (h : (⟨3, ![A, B, 1]⟩ : Shape).Reduces [1] ⟨2, ![A, 1]⟩)
    (hφ : FTy.f32 = FTy.f32 ∨ FTy.f32 = FTy.bf16) (hacc : (0x00000000#32 : BitVec 32) = 0x00000000#32) (r : Fin A) (z : Fin 1) :
    multiReduction .add [1] ⟨2, ![A, 1]⟩ src 0x00000000#32 h hφ hacc (ix2 r z) = ∑ p : Fin B, src (ix3 r p z) := by
  refine (Ideal.multiReduction_add_single src 0x00000000#32 h hφ hacc (ix2 r z)).trans ?_
  exact Finset.sum_congr rfl fun p _ => congrArg src (funext fun a => Fin.ext (by
    match a with
    | ⟨0, _⟩ => rfl
    | ⟨1, _⟩ => rfl
    | ⟨2, _⟩ => rfl))

/-- The host's sum of an [A, B, C] array over both trailing axes, read at r: the initial value plus the
    double sum over (p, q) of the entries (r, p, q). -/
theorem host_sum_plane (h : (⟨3, ![A, B, C]⟩ : Shape).ReducesTo [1, 2] ⟨1, ![A]⟩)
    (x : (⟨3, ![A, B, C]⟩ : Shape).Idx → EReal) (init : EReal) (r : Fin A) :
    Ideal.hostReduceAdd h x init (ix1 r) = init + ∑ p : Fin B, ∑ q : Fin C, x (ix3 r p q) := by
  unfold Ideal.hostReduceAdd
  refine congrArg (init + ·) ?_
  rw [← Finset.sum_product']
  refine Finset.sum_nbij' (fun i => ((⟨(i 1).val, (i 1).isLt⟩ : Fin B), (⟨(i 2).val, (i 2).isLt⟩ : Fin C)))
    (fun pq => ix3 r pq.1 pq.2) (fun _ _ => Finset.mem_product.2 ⟨Finset.mem_univ _, Finset.mem_univ _⟩) ?_ ?_ ?_ ?_
  · intro pq _
    refine Finset.mem_filter.2 ⟨Finset.mem_univ _, ?_⟩
    funext b
    match b with
    | ⟨0, _⟩ => exact Fin.ext rfl
  · intro i hi
    have hd := congrFun (Finset.mem_filter.1 hi).2 (0 : Fin 1)
    have h0 : (i 0).val = r.val := congrArg Fin.val hd
    funext a
    match a with
    | ⟨0, _⟩ => exact Fin.ext h0.symm
    | ⟨1, _⟩ => exact Fin.ext rfl
    | ⟨2, _⟩ => exact Fin.ext rfl
  · intro pq _
    rfl
  · intro i hi
    have hd := congrFun (Finset.mem_filter.1 hi).2 (0 : Fin 1)
    have h0 : (i 0).val = r.val := congrArg Fin.val hd
    refine congrArg x (funext fun a => ?_)
    match a with
    | ⟨0, _⟩ => exact Fin.ext h0
    | ⟨1, _⟩ => exact Fin.ext rfl
    | ⟨2, _⟩ => exact Fin.ext rfl

end Cert.Lib.Cube

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibUnitSpread.lean ====
/-
  A single row of lanes, or a single number, repeated over a block, read at an entry.

  * A [1, 1, C] array repeated over an [A, B, C] block reads, at (r, p, q), its entry (0, 0, q) (spread_lane).
  * A [1, 1] array repeated over an [A, B] block reads, at (r, p), its one entry (0, 0) (spread_one).
-/
import Idealize.ShloMosaic.Lib.ValueIdx
import Idealize.ShloMosaic.Lib.Pipeline.Value

noncomputable section

namespace Cert.Lib.UnitSpread

open Idealize.ShloMosaic Idealize.ShloMosaic.ValueIdx

variable {α : Type} {A B C : Nat}

/-- A [1, 1, C] array repeated along both leading axes: entry (r, p, q) is the array's entry (0, 0, q). -/
theorem spread_lane (v : (⟨3, ![1, 1, C]⟩ : Shape).Idx → α) (h : (⟨3, ![1, 1, C]⟩ : Shape).Broadcasts ⟨3, ![A, B, C]⟩)
    (r : Fin A) (p : Fin B) (q : Fin C) :
    broadcastTo ⟨3, ![A, B, C]⟩ v h (ix3 r p q) = v (ix3 (0 : Fin 1) (0 : Fin 1) q) :=
  broadcastTo_apply v h (ix3 r p q) (ix3 (0 : Fin 1) (0 : Fin 1) q) (fun a => match a with
    | ⟨0, _⟩ => by show 0 = if (1 : Nat) = 1 then 0 else r.val; rw [if_pos rfl]
    | ⟨1, _⟩ => by show 0 = if (1 : Nat) = 1 then 0 else p.val; rw [if_pos rfl]
    | ⟨2, _⟩ => by
        show q.val = if C = 1 then 0 else q.val
        split
        · have := q.isLt; omega
        · rfl)

/-- A [1, 1] array repeated over an [A, B] block: every entry is the array's one entry. -/
theorem spread_one (v : (⟨2, ![1, 1]⟩ : Shape).Idx → α) (h : (⟨2, ![1, 1]⟩ : Shape).Broadcasts ⟨2, ![A, B]⟩)
    (r : Fin A) (p : Fin B) : broadcastTo ⟨2, ![A, B]⟩ v h (ix2 r p) = v (ix2 (0 : Fin 1) (0 : Fin 1)) :=
  broadcastTo_apply v h (ix2 r p) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else p.val; rw [if_pos rfl])

end Cert.Lib.UnitSpread

end
-- ==== Proof.BlockValue.lean ====
/-
  What the kernel body computes on one block, read at an entry.

  At a grid point the body holds 128 rows of `pa` (`x0`), 256 rows of `pb` (`x1`), the three biases as rows
  (`x2`, `x4`, `x6`), the second layer's weight stored input-major, 64 × 32 (`x3`), and the last layer's weight as a
  row (`x5`). It forms the 128 × 256 × 64 block of first-layer values, flattens the pairs to 32768 rows for one matrix
  product with `x3`, splits the rows back into pairs, adds the bias, takes the positive part, multiplies by `x5` and sums
  the 32 lanes, adds the last bias and takes the positive part. Entry (p, q) of what it stores is therefore the three
  layers applied to row `p` of `x0` and row `q` of `x1`: flattening pair (p, q) to row p·256 + q and splitting it back
  are inverse to each other, the matrix product into the zero accumulator is the plain sum over the 64 hidden units, and the
  lane sum is the plain sum over the 32 units.
-/
import proofs.«135902_j54743653155010_2_alg».proof.Proof.Gen.KernelIdeal.Skeleton
import proofs.«135902_j54743653155010_2_alg».proof.Proof.Layers
import proofs.«135902_j54743653155010_2_alg».proof.Proof.LibCube
import proofs.«135902_j54743653155010_2_alg».proof.Proof.LibReshape
import proofs.«135902_j54743653155010_2_alg».proof.Proof.LibPlainDot
import proofs.«135902_j54743653155010_2_alg».proof.Proof.LibUnitSpread

noncomputable section

open scoped BigOperators

namespace Cert.KernelIdeal.BlockValue

open Cert.KernelIdeal Cert.KernelIdeal.Gen Cert.PairMlp Cert.Lib
open Idealize.ShloMosaic Idealize.ShloMosaic.ValueIdx

/-! ## The body's three stages as functions of the loaded blocks -/

/-- The first layer over the block's pairs: the 128 × 256 × 64 array of positive parts. -/
def stage1 (x0 : Vec Ideal S128x64 .f32) (x1 : Vec Ideal S256x64 .f32) (x2 : Vec Ideal S1x64 .f32) : FVec Ideal S128x256x64 .f32 :=
  maximumf
    (addf
      (subf
        (broadcastTo S128x256x64 (shapeCast S128x1x64 (shapeCast S128x64 x0 Facts₀.shapeCasts_S128x64_S128x64) Facts₀.shapeCasts_S128x64_S128x1x64) Facts₀.broadcasts_S128x1x64_S128x256x64)
        (broadcastTo S128x256x64 (shapeCast S1x256x64 (shapeCast S256x64 x1 Facts₀.shapeCasts_S256x64_S256x64) Facts₀.shapeCasts_S256x64_S1x256x64) Facts₀.broadcasts_S1x256x64_S128x256x64))
      (broadcastTo S128x256x64 (shapeCast S1x1x64 (shapeCast S1x64 x2 Facts₀.shapeCasts_S1x64_S1x64) Facts₀.shapeCasts_S1x64_S1x1x64) Facts₀.broadcasts_S1x1x64_S128x256x64))
    (broadcast S128x256x64 (Scalar.ofBits .f32 0x00000000#32))

/-- The second layer: the pairs flattened to rows, one matrix product, the rows split back into pairs. -/
def stage2 (y : FVec Ideal S128x256x64 .f32) (x3 : Vec Ideal S64x32 .bf16) (x4 : Vec Ideal S1x32 .f32) : FVec Ideal S128x256x32 .f32 :=
  maximumf
    (addf
      (shapeCast S128x256x32
        (matmul dot_S32768x64_S64x32_S32768x32_1_0_0_1_n_n none
          (truncf .bf16 (shapeCast S32768x64 y Facts₀.shapeCasts_S128x256x64_S32768x64) Facts₀.bitsLt_bf16_f32)
          (shapeCast S64x32 x3 Facts₀.shapeCasts_S64x32_S64x32 : FVec Ideal S64x32 .bf16)
          (constant S32768x32 .f32 0x00000000#32))
        Facts₀.shapeCasts_S32768x32_S128x256x32)
      (broadcastTo S128x256x32 (shapeCast S1x1x32 (shapeCast S1x32 x4 Facts₀.shapeCasts_S1x32_S1x32) Facts₀.shapeCasts_S1x32_S1x1x32) Facts₀.broadcasts_S1x1x32_S128x256x32))
    (broadcast S128x256x32 (Scalar.ofBits .f32 0x00000000#32))

/-- The last layer before its positive part: a product with the weight row, the sum of the 32 lanes, the bias. -/
def stage3 (y : FVec Ideal S128x256x32 .f32) (x5 : Vec Ideal S1x32 .f32) (x6 : Vec Ideal S1x1 .f32) : FVec Ideal S128x256 .f32 :=
  addf
    (multiReduction .add [2] S128x256
      (mulf y (broadcastTo S128x256x32 (shapeCast S1x1x32 x5 Facts₀.shapeCasts_S1x32_S1x1x32) Facts₀.broadcasts_S1x1x32_S128x256x32))
      0x00000000#32 Facts₀.reduces_S128x256x32_S128x256 (.inl rfl) rfl)
    (broadcastTo S128x256 (shapeCast S1x1 x6 Facts₀.shapeCasts_S1x1_S1x1) Facts₀.broadcasts_S1x1_S128x256)

/-- The body's arithmetic is the three stages, one after the other. -/
theorem pay2_stages (x0 : Vec Ideal S128x64 .f32) (x1 : Vec Ideal S256x64 .f32) (x2 : Vec Ideal S1x64 .f32)
    (x3 : Vec Ideal S64x32 .bf16) (x4 x5 : Vec Ideal S1x32 .f32) (x6 : Vec Ideal S1x1 .f32) :
    k0_pay2 x0 x1 x2 x3 x4 x5 x6 = stage3 (stage2 (stage1 x0 x1 x2) x3 x4) x5 x6 := rfl

/-! ## Each stage at an entry -/

/-- The first layer at pair (p, q), hidden unit h. -/
theorem stage1_entry (x0 : Vec Ideal S128x64 .f32) (x1 : Vec Ideal S256x64 .f32) (x2 : Vec Ideal S1x64 .f32)
    (p : Fin 128) (q : Fin 256) (h : Fin 64) :
    stage1 x0 x1 x2 (ix3 p q h) = pos (x0 (ix2 p h) - x1 (ix2 q h) + x2 (ix2 (0 : Fin 1) h)) := by
  unfold stage1 pos
  rw [maximumf_apply, addf_apply, subf_apply, broadcast_apply, Cube.spread_row, Cube.cast_row, shapeCast_self,
    Cube.spread_slab, Cube.cast_slab, shapeCast_self, UnitSpread.spread_lane, Cube.cast_slab, shapeCast_self]
  rfl

/-- The matrix product of the flattened pairs with the weight, into the zero accumulator, at row i, unit k. -/
theorem product_entry (l : FVec Ideal S32768x64 .bf16) (r : FVec Ideal S64x32 .bf16) (i : Fin 32768) (k : Fin 32) :
    matmul dot_S32768x64_S64x32_S32768x32_1_0_0_1_n_n none l r (constant S32768x32 .f32 0x00000000#32) (ix2 i k)
      = ∑ h : Fin 64, l (ix2 i h) * r (ix2 h k) :=
  PlainDot.matmul_zero_apply (M := 32768) (K := 64) (N := 32) none l r i k

/-- The second layer at pair (p, q), unit k. -/
theorem stage2_entry (y : FVec Ideal S128x256x64 .f32) (x3 : Vec Ideal S64x32 .bf16) (x4 : Vec Ideal S1x32 .f32)
    (p : Fin 128) (q : Fin 256) (k : Fin 32) :
    stage2 y x3 x4 (ix3 p q k) = pos ((∑ h : Fin 64, y (ix3 p q h) * x3 (ix2 h k)) + x4 (ix2 (0 : Fin 1) k)) := by
  have hr : p.val * 256 + q.val < 32768 := by have := p.isLt; have := q.isLt; omega
  unfold stage2 pos
  rw [maximumf_apply, addf_apply, broadcast_apply,
    Reshape.split_apply _ Facts₀.shapeCasts_S32768x32_S128x256x32 p q k ⟨p.val * 256 + q.val, hr⟩ rfl, product_entry,
    UnitSpread.spread_lane, Cube.cast_slab, shapeCast_self, shapeCast_self]
  have e : ∀ h : Fin 64, (truncf .bf16 (shapeCast S32768x64 y Facts₀.shapeCasts_S128x256x64_S32768x64) Facts₀.bitsLt_bf16_f32 : FVec Ideal S32768x64 .bf16)
      (ix2 (⟨p.val * 256 + q.val, hr⟩ : Fin 32768) h) = y (ix3 p q h) := fun h =>
    Reshape.merge_apply y Facts₀.shapeCasts_S128x256x64_S32768x64 p q h ⟨p.val * 256 + q.val, hr⟩ rfl
  rw [Finset.sum_congr rfl fun h _ => congrArg (· * x3 (ix2 h k)) (e h)]
  rfl

/-- The last layer before its positive part, at pair (p, q). -/
theorem stage3_entry (y : FVec Ideal S128x256x32 .f32) (x5 : Vec Ideal S1x32 .f32) (x6 : Vec Ideal S1x1 .f32)
    (p : Fin 128) (q : Fin 256) :
    stage3 y x5 x6 (ix2 p q) = (∑ k : Fin 32, y (ix3 p q k) * x5 (ix2 (0 : Fin 1) k)) + x6 (ix2 (0 : Fin 1) (0 : Fin 1)) := by
  unfold stage3
  rw [addf_apply, Cube.sum_last, UnitSpread.spread_one, shapeCast_self]
  refine congrArg (· + x6 (ix2 (0 : Fin 1) (0 : Fin 1))) (Finset.sum_congr rfl fun k _ => ?_)
  rw [mulf_apply, UnitSpread.spread_lane, Cube.cast_slab]

/-! ## The stored value at an entry -/

/-- Entry (p, q) of what the body stores: the three layers on row p of `x0` and row q of `x1`. -/
theorem stored_entry (x0 : Vec Ideal S128x64 .f32) (x1 : Vec Ideal S256x64 .f32) (x2 : Vec Ideal S1x64 .f32)
    (x3 : Vec Ideal S64x32 .bf16) (x4 x5 : Vec Ideal S1x32 .f32) (x6 : Vec Ideal S1x1 .f32) (p : Fin 128) (q : Fin 256) :
    k0_pay1 (k0_pay2 x0 x1 x2 x3 x4 x5 x6) (k0_pay3 (F := Ideal)) (ix2 p q)
      = mlp (fun h => x0 (ix2 p h)) (fun h => x1 (ix2 q h)) (fun h => x2 (ix2 (0 : Fin 1) h)) (fun h k => x3 (ix2 h k))
          (fun k => x4 (ix2 (0 : Fin 1) k)) (fun k => x5 (ix2 (0 : Fin 1) k)) (x6 (ix2 (0 : Fin 1) (0 : Fin 1))) := by
  rw [pay2_stages]
  unfold k0_pay1 k0_pay3 mlp
  show pos (stage3 (stage2 (stage1 x0 x1 x2) x3 x4) x5 x6 (ix2 p q)) = _
  rw [stage3_entry]
  refine congrArg (fun s => pos (s + x6 (ix2 (0 : Fin 1) (0 : Fin 1)))) (Finset.sum_congr rfl fun k _ => ?_)
  rw [stage2_entry]
  refine congrArg (fun s => pos (s + x4 (ix2 (0 : Fin 1) k)) * x5 (ix2 (0 : Fin 1) k)) (Finset.sum_congr rfl fun h _ => ?_)
  rw [stage1_entry]

end Cert.KernelIdeal.BlockValue

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.Staged.lean ====
/-
  The arrays the kernel's region finds, read at an entry.

  Before the region the program projects the rows of `a` and of `b` by `W1` (after a change of float format of all
  three, which is the identity on the extended reals), transposes `W2` to input-major 64 × 32 (and changes its format),
  and views the three bias vectors as rows of one line. So the region finds, at (n, h), row `n` of `a` against row `h`
  of `W1`; at (h, k) of the transposed weight, entry (k, h) of `W2`; and at (0, j) of a bias row, entry j of the bias.
-/
import proofs.«135902_j54743653155010_2_alg».proof.Proof.Gen.KernelIdeal.Frame
import proofs.«135902_j54743653155010_2_alg».proof.Proof.Layers
import proofs.«135902_j54743653155010_2_alg».proof.Proof.LibDotRows
import proofs.«135902_j54743653155010_2_alg».proof.Proof.LibRowForms
import Idealize.ShloMosaic.Lib.StableHlo.Run

noncomputable section

open scoped BigOperators

namespace Cert.KernelIdeal.Staged

open Cert.KernelIdeal Cert.KernelIdeal.Gen Cert.PairMlp Cert.Lib
open Idealize.ShloMosaic Idealize.ShloMosaic.TcCoe Idealize.ShloMosaic.ValueIdx Idealize.ShloMosaic.StableHlo Idealize.SL.Sem

variable (m : (ℓ : Loc nD τ sig) → Buf (Elt Ideal) ℓ)

/-! ## The region's entry contents as terms of the arguments -/

/-- The projection of `a` as the region finds it. -/
theorem V_pa (c : Dev nD) : (V m c main_v3 : FVec Ideal S1024x64 .f32)
    = (Host.dotGeneral dot_S1024x1600_S64x1600_S1024x64_1_1_0_0_n_n none
        (truncf .bf16 (m ((c : Thread nD τ).loc main_arg0) : FVec Ideal S1024x1600 .f32) Facts₀.bitsLt_bf16_f32)
        (truncf .bf16 (m ((c : Thread nD τ).loc main_arg2) : FVec Ideal S64x1600 .f32) Facts₀.bitsLt_bf16_f32) : FVec Ideal S1024x64 .f32) := by
  dsimp only [V, hostOps0]; after_results <;> rfl

/-- The projection of `b` as the region finds it. -/
theorem V_pb (c : Dev nD) : (V m c main_v4 : FVec Ideal S1024x64 .f32)
    = (Host.dotGeneral dot_S1024x1600_S64x1600_S1024x64_1_1_0_0_n_n none
        (truncf .bf16 (m ((c : Thread nD τ).loc main_arg1) : FVec Ideal S1024x1600 .f32) Facts₀.bitsLt_bf16_f32)
        (truncf .bf16 (m ((c : Thread nD τ).loc main_arg2) : FVec Ideal S64x1600 .f32) Facts₀.bitsLt_bf16_f32) : FVec Ideal S1024x64 .f32) := by
  dsimp only [V, hostOps0]; after_results <;> rfl

/-- The second layer's weight as the region finds it: transposed. -/
theorem V_w2 (c : Dev nD) : (V m c main_v6 : FVec Ideal S64x32 .bf16)
    = (truncf .bf16 (transpose S64x32 [1, 0] (m ((c : Thread nD τ).loc main_arg4) : FVec Ideal S32x64 .f32) Facts₀.transposes_S32x64_S64x32_1_0 : FVec Ideal S64x32 .f32) Facts₀.bitsLt_bf16_f32 : FVec Ideal S64x32 .bf16) := by
  dsimp only [V, hostOps0]; after_results <;> rfl

/-- The first bias as a row. -/
theorem V_b1 (c : Dev nD) : (V m c main_v7 : FVec Ideal S1x64 .f32)
    = (shapeCast S1x64 (m ((c : Thread nD τ).loc main_arg3) : FVec Ideal S64 .f32) Facts₀.shapeCasts_S64_S1x64 : FVec Ideal S1x64 .f32) := by
  dsimp only [V, hostOps0]; after_results <;> rfl

/-- The second bias as a row. -/
theorem V_b2 (c : Dev nD) : (V m c main_v8 : FVec Ideal S1x32 .f32)
    = (shapeCast S1x32 (m ((c : Thread nD τ).loc main_arg5) : FVec Ideal S32 .f32) Facts₀.shapeCasts_S32_S1x32 : FVec Ideal S1x32 .f32) := by
  dsimp only [V, hostOps0]; after_results <;> rfl

/-- The last bias as a 1 × 1 array. -/
theorem V_b3 (c : Dev nD) : (V m c main_v9 : FVec Ideal S1x1 .f32)
    = (shapeCast S1x1 (m ((c : Thread nD τ).loc main_arg7) : FVec Ideal S1 .f32) Facts₀.shapeCasts_S1_S1x1 : FVec Ideal S1x1 .f32) := by
  dsimp only [V, hostOps0]; after_results <;> rfl

/-! ## Read at an entry -/

/-- Entry (n, h) of the projection of `a`. -/
theorem pa_entry (c : Dev nD) (n : Fin 1024) (h : Fin 64) :
    (V m c main_v3 : FVec Ideal S1024x64 .f32) (ix2 n h)
      = proj (m ((c : Thread nD τ).loc main_arg0)) (m ((c : Thread nD τ).loc main_arg2)) n h := by
  rw [V_pa]
  unfold dot_S1024x1600_S64x1600_S1024x64_1_1_0_0_n_n
  refine (DotRows.dotGeneral_rows_apply (M := 1024) (K := 1600) (N := 64) _ none _ _ n h).trans ?_
  rfl

/-- Entry (n, h) of the projection of `b`. -/
theorem pb_entry (c : Dev nD) (n : Fin 1024) (h : Fin 64) :
    (V m c main_v4 : FVec Ideal S1024x64 .f32) (ix2 n h)
      = proj (m ((c : Thread nD τ).loc main_arg1)) (m ((c : Thread nD τ).loc main_arg2)) n h := by
  rw [V_pb]
  unfold dot_S1024x1600_S64x1600_S1024x64_1_1_0_0_n_n
  refine (DotRows.dotGeneral_rows_apply (M := 1024) (K := 1600) (N := 64) _ none _ _ n h).trans ?_
  rfl

/-- Entry (h, k) of the transposed weight is entry (k, h) of `W2`. -/
theorem w2_entry (c : Dev nD) (h : Fin 64) (k : Fin 32) :
    (V m c main_v6 : FVec Ideal S64x32 .bf16) (ix2 h k) = (m ((c : Thread nD τ).loc main_arg4) : FVec Ideal S32x64 .f32) (ix2 k h) := by
  rw [V_w2]
  exact transpose_apply [1, 0] _ Facts₀.transposes_S32x64_S64x32_1_0 (ix2 h k) (ix2 k h) (fun b => match b with
    | ⟨0, _⟩ => rfl
    | ⟨1, _⟩ => rfl)

/-- Entry (0, h) of the first bias row. -/
theorem b1_entry (c : Dev nD) (h : Fin 64) :
    (V m c main_v7 : FVec Ideal S1x64 .f32) (ix2 (0 : Fin 1) h) = (m ((c : Thread nD τ).loc main_arg3) : FVec Ideal S64 .f32) (ix1 h) := by
  rw [V_b1]
  exact RowForms.vecRow_apply _ Facts₀.shapeCasts_S64_S1x64 h

/-- Entry (0, k) of the second bias row. -/
theorem b2_entry (c : Dev nD) (k : Fin 32) :
    (V m c main_v8 : FVec Ideal S1x32 .f32) (ix2 (0 : Fin 1) k) = (m ((c : Thread nD τ).loc main_arg5) : FVec Ideal S32 .f32) (ix1 k) := by
  rw [V_b2]
  exact RowForms.vecRow_apply _ Facts₀.shapeCasts_S32_S1x32 k

/-- The one entry of the last bias. -/
theorem b3_entry (c : Dev nD) :
    (V m c main_v9 : FVec Ideal S1x1 .f32) (ix2 (0 : Fin 1) (0 : Fin 1)) = (m ((c : Thread nD τ).loc main_arg7) : FVec Ideal S1 .f32) (ix1 (0 : Fin 1)) := by
  rw [V_b3]
  exact RowForms.vecRow_apply _ Facts₀.shapeCasts_S1_S1x1 (0 : Fin 1)

end Cert.KernelIdeal.Staged

end
-- ==== Proof.KernelValue.lean ====
/-
  The kernel's result array.

  The grid has 8 × 4 points; point (i, j) holds rows 128·i … 128·i + 127 of `pa`, rows 256·j … 256·j + 255 of `pb`, the
  whole of every weight and bias, and writes back the 128 × 256 block (i, j) of the result. Entry (p, q) of what it
  writes is the three layers on row p of its `pa` block and row q of its `pb` block — the score of the pair
  (128·i + p, 256·j + q) — so every point writes its block of one and the same array, the pair-score array; the 32 blocks
  tile the 1024 × 1024 result, so the result array ends holding it.
-/
import proofs.«135902_j54743653155010_2_alg».proof.Proof.Gen.KernelIdeal.Value
import proofs.«135902_j54743653155010_2_alg».proof.Proof.BlockValue
import proofs.«135902_j54743653155010_2_alg».proof.Proof.Staged

noncomputable section

open scoped BigOperators

namespace Cert.KernelIdeal.KernelValue

open Cert.KernelIdeal Cert.KernelIdeal.Gen Cert.KernelIdeal.Value Cert.PairMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three layers depend only on the numbers they are given. -/
theorem mlp_congr {u u' v v' b1 b1' : Fin 64 → EReal} {w2 w2' : Fin 64 → Fin 32 → EReal} {b2 b2' w3 w3' : Fin 32 → EReal}
    {b3 b3' : EReal} (hu : u = u') (hv : v = v') (h1 : b1 = b1') (hw2 : w2 = w2') (h2 : b2 = b2') (hw3 : w3 = w3')
    (h3 : b3 = b3') : mlp u v b1 w2 b2 w3 b3 = mlp u' v' b1' w2' b2' w3' b3' := by
  subst hu hv h1 hw2 h2 hw3 h3; rfl

/-- The pair-score array of the launch memory's argument arrays on core `c`. -/
abbrev result (c : Dev nD) : FVec Ideal S1024x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## Which block each window holds at a point -/

/-- The printed index maps over the 32 grid points: the `pa` window moves with the result's row block, the `pb` window with
    its column block, every other input window stays at block (0, 0); the result's block indices stay in 8 × 4. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 7 ∧ win0_7.index t (1 : Fin 2) ≤ 3 :=
  (by decide +kernel : ∀ t : Fin grid0.N, _)

/-- Every block of the 8 × 4 tiling is some point's. -/
theorem idx_onto : ∀ (q0 : Fin 8) (q1 : Fin 4), ∃ t : Fin cfg0.N, win0_7.index t = ![q0.val, q1.val] :=
  (by decide +kernel : ∀ (q0 : Fin 8) (q1 : Fin 4), ∃ t : Fin grid0.N, win0_7.index t = ![q0.val, q1.val])

/-! ## Each input block read at an entry: the array the region finds, at the block's offset -/

theorem pa_blk (c : Dev nD) (t : Fin cfg0.N) (p : Fin 128) (h : Fin 64) (n : Fin 1024)
    (hn : win0_0.index t (0 : Fin 2) * 128 + p.val = n.val) (h1 : win0_0.index t (1 : Fin 2) = 0) :
    (iblk m c 0 t : Vec Ideal S128x64 .f32) (ix2 p h) = (V m c main_v3 : FVec Ideal S1024x64 .f32) (ix2 n h) := by
  show (V m c main_v3 : FVec Ideal S1024x64 .f32) (((cfg0.win 0).blk t).view.emb (ix2 p h)) = _
  refine congrArg (V m c main_v3 : FVec Ideal S1024x64 .f32) (funext fun a => Fin.ext ?_)
  match a with
  | ⟨0, _⟩ => show win0_0.index t (0 : Fin 2) * 128 + 1 * p.val = n.val; omega
  | ⟨1, _⟩ => show win0_0.index t (1 : Fin 2) * 64 + 1 * h.val = h.val; omega

theorem pb_blk (c : Dev nD) (t : Fin cfg0.N) (q : Fin 256) (h : Fin 64) (n : Fin 1024)
    (hn : win0_1.index t (0 : Fin 2) * 256 + q.val = n.val) (h1 : win0_1.index t (1 : Fin 2) = 0) :
    (iblk m c 1 t : Vec Ideal S256x64 .f32) (ix2 q h) = (V m c main_v4 : FVec Ideal S1024x64 .f32) (ix2 n h) := by
  show (V m c main_v4 : FVec Ideal S1024x64 .f32) (((cfg0.win 1).blk t).view.emb (ix2 q h)) = _
  refine congrArg (V m c main_v4 : FVec Ideal S1024x64 .f32) (funext fun a => Fin.ext ?_)
  match a with
  | ⟨0, _⟩ => show win0_1.index t (0 : Fin 2) * 256 + 1 * q.val = n.val; omega
  | ⟨1, _⟩ => show win0_1.index t (1 : Fin 2) * 64 + 1 * h.val = h.val; omega

theorem b1_blk (c : Dev nD) (t : Fin cfg0.N) (h : Fin 64)
    (h0 : win0_2.index t (0 : Fin 2) = 0) (h1 : win0_2.index t (1 : Fin 2) = 0) :
    (iblk m c 2 t : Vec Ideal S1x64 .f32) (ix2 (0 : Fin 1) h) = (V m c main_v7 : FVec Ideal S1x64 .f32) (ix2 (0 : Fin 1) h) := by
  show (V m c main_v7 : FVec Ideal S1x64 .f32) (((cfg0.win 2).blk t).view.emb (ix2 (0 : Fin 1) h)) = _
  refine congrArg (V m c main_v7 : FVec Ideal S1x64 .f32) (funext fun a => Fin.ext ?_)
  match a with
  | ⟨0, _⟩ => show win0_2.index t (0 : Fin 2) * 1 + 1 * 0 = 0; omega
  | ⟨1, _⟩ => show win0_2.index t (1 : Fin 2) * 64 + 1 * h.val = h.val; omega

theorem w2_blk (c : Dev nD) (t : Fin cfg0.N) (h : Fin 64) (k : Fin 32)
    (h0 : win0_3.index t (0 : Fin 2) = 0) (h1 : win0_3.index t (1 : Fin 2) = 0) :
    (iblk m c 3 t : Vec Ideal S64x32 .bf16) (ix2 h k) = (V m c main_v6 : FVec Ideal S64x32 .bf16) (ix2 h k) := by
  show (V m c main_v6 : FVec Ideal S64x32 .bf16) (((cfg0.win 3).blk t).view.emb (ix2 h k)) = _
  refine congrArg (V m c main_v6 : FVec Ideal S64x32 .bf16) (funext fun a => Fin.ext ?_)
  match a with
  | ⟨0, _⟩ => show win0_3.index t (0 : Fin 2) * 64 + 1 * h.val = h.val; omega
  | ⟨1, _⟩ => show win0_3.index t (1 : Fin 2) * 32 + 1 * k.val = k.val; omega

theorem b2_blk (c : Dev nD) (t : Fin cfg0.N) (k : Fin 32)
    (h0 : win0_4.index t (0 : Fin 2) = 0) (h1 : win0_4.index t (1 : Fin 2) = 0) :
    (iblk m c 4 t : Vec Ideal S1x32 .f32) (ix2 (0 : Fin 1) k) = (V m c main_v8 : FVec Ideal S1x32 .f32) (ix2 (0 : Fin 1) k) := by
  show (V m c main_v8 : FVec Ideal S1x32 .f32) (((cfg0.win 4).blk t).view.emb (ix2 (0 : Fin 1) k)) = _
  refine congrArg (V m c main_v8 : FVec Ideal S1x32 .f32) (funext fun a => Fin.ext ?_)
  match a with
  | ⟨0, _⟩ => show win0_4.index t (0 : Fin 2) * 1 + 1 * 0 = 0; omega
  | ⟨1, _⟩ => show win0_4.index t (1 : Fin 2) * 32 + 1 * k.val = k.val; omega

theorem w3_blk (c : Dev nD) (t : Fin cfg0.N) (k : Fin 32)
    (h0 : win0_5.index t (0 : Fin 2) = 0) (h1 : win0_5.index t (1 : Fin 2) = 0) :
    (iblk m c 5 t : Vec Ideal S1x32 .f32) (ix2 (0 : Fin 1) k) = (V m c main_arg6 : FVec Ideal S1x32 .f32) (ix2 (0 : Fin 1) k) := by
  show (V m c main_arg6 : FVec Ideal S1x32 .f32) (((cfg0.win 5).blk t).view.emb (ix2 (0 : Fin 1) k)) = _
  refine congrArg (V m c main_arg6 : FVec Ideal S1x32 .f32) (funext fun a => Fin.ext ?_)
  match a with
  | ⟨0, _⟩ => show win0_5.index t (0 : Fin 2) * 1 + 1 * 0 = 0; omega
  | ⟨1, _⟩ => show win0_5.index t (1 : Fin 2) * 32 + 1 * k.val = k.val; omega

theorem b3_blk (c : Dev nD) (t : Fin cfg0.N)
    (h0 : win0_6.index t (0 : Fin 2) = 0) (h1 : win0_6.index t (1 : Fin 2) = 0) :
    (iblk m c 6 t : Vec Ideal S1x1 .f32) (ix2 (0 : Fin 1) (0 : Fin 1)) = (V m c main_v9 : FVec Ideal S1x1 .f32) (ix2 (0 : Fin 1) (0 : Fin 1)) := by
  show (V m c main_v9 : FVec Ideal S1x1 .f32) (((cfg0.win 6).blk t).view.emb (ix2 (0 : Fin 1) (0 : Fin 1))) = _
  refine congrArg (V m c main_v9 : FVec Ideal S1x1 .f32) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-! ## What a point writes back -/

/-- Point `t` writes back block `t` of the pair-score array. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S128x64) hz, View.ld_unit_zero (S := S256x64) hz, View.ld_unit_zero (S := S1x64) hz,
    View.ld_unit_zero (S := S64x32) hz, View.ld_unit_zero (S := S1x32) hz, View.ld_unit_zero (S := S1x1) hz]
  obtain ⟨e00, e01, e10, e11, e20, e21, e30, e31, e40, e41, e50, e51, e60, e61, l0, l1⟩ := idx_facts t
  funext j
  obtain ⟨p, q, rfl⟩ : ∃ (p : Fin 128) (q : Fin 256), (j : S128x256.Idx) = ix2 p q := ⟨j 0, j 1, eq_ix2 (n0 := 128) (n1 := 256) j⟩
  have hp := p.isLt
  have hq := q.isLt
  have hn : win0_7.index t (0 : Fin 2) * 128 + p.val < 1024 := by omega
  have hm : win0_7.index t (1 : Fin 2) * 256 + q.val < 1024 := by omega
  have hemb : ((cfg0.win 7).blk t).view.emb (ix2 p q)
      = ix2 (⟨win0_7.index t (0 : Fin 2) * 128 + p.val, hn⟩ : Fin 1024) (⟨win0_7.index t (1 : Fin 2) * 256 + q.val, hm⟩ : Fin 1024) := by
    funext a
    apply Fin.ext
    match a with
    | ⟨0, _⟩ => show win0_7.index t (0 : Fin 2) * 128 + 1 * p.val = win0_7.index t (0 : Fin 2) * 128 + p.val; omega
    | ⟨1, _⟩ => show win0_7.index t (1 : Fin 2) * 256 + 1 * q.val = win0_7.index t (1 : Fin 2) * 256 + q.val; omega
  show k0_pay1 (k0_pay2 (iblk m c 0 t) (iblk m c 1 t) (iblk m c 2 t) (iblk m c 3 t) (iblk m c 4 t) (iblk m c 5 t) (iblk m c 6 t)) (k0_pay3 (F := Ideal)) (ix2 p q)
    = result m c (((cfg0.win 7).blk t).view.emb (ix2 p q))
  rw [hemb]
  refine (BlockValue.stored_entry (iblk m c 0 t) (iblk m c 1 t) (iblk m c 2 t) (iblk m c 3 t) (iblk m c 4 t) (iblk m c 5 t) (iblk m c 6 t) p q).trans
    (Eq.trans ?_ (G_apply _ _ _ _ _ _ _ _ _ _).symm)
  unfold score
  refine mlp_congr (funext fun h => ?_) (funext fun h => ?_) (funext fun h => ?_) (funext fun h => funext fun k => ?_)
    (funext fun k => ?_) (funext fun k => ?_) ?_
  · exact (pa_blk m c t p h _ (by rw [e00]) e01).trans (Staged.pa_entry m c _ h)
  · exact (pb_blk m c t q h _ (by rw [e10]) e11).trans (Staged.pb_entry m c _ h)
  · exact (b1_blk m c t h e20 e21).trans (Staged.b1_entry m c h)
  · exact (w2_blk m c t h k e30 e31).trans (Staged.w2_entry m c h k)
  · exact (b2_blk m c t k e40 e41).trans (Staged.b2_entry m c k)
  · exact (w3_blk m c t k e50 e51).trans (congrFun (V_main_arg6 m c) (ix2 (0 : Fin 1) k))
  · exact (b3_blk m c t e60 e61).trans (Staged.b3_entry m c)

/-! ## The blocks tile the result -/

/-- An index of the result is in point `t`'s block iff each coordinate is in the block's range on its axis. -/
theorem mem_blk (t : Fin cfg0.N) (i : S1024x1024.Idx) :
    i ∈ ((cfg0.win 7).blk t).view.set ↔ ∀ a : Fin 2, win0_7.index t a * S128x256.size a ≤ (i a).val ∧ (i a).val < win0_7.index t a * S128x256.size a + S128x256.size a := by
  show i ∈ ((View.whole main_v10).slice (win0_7.rect t)).set ↔ _
  rw [View.set_slice_whole, Rect.mem_set_unit]
  exact Iff.rfl

/-- Entry (n, m) is in the block of the point with block index (n / 128, m / 256). -/
theorem cover (i : S1024x1024.Idx) : ∃ t : Fin cfg0.N, (cfg0.win 7).flush t = true ∧ i ∈ ((cfg0.win 7).blk t).view.set := by
  have hi0 : (i 0).val < 1024 := (i 0).isLt
  have hi1 : (i 1).val < 1024 := (i 1).isLt
  obtain ⟨t, ht⟩ := idx_onto ⟨(i 0).val / 128, by omega⟩ ⟨(i 1).val / 256, by omega⟩
  have q0 : win0_7.index t (0 : Fin 2) = (i 0).val / 128 := congrFun ht 0
  have q1 : win0_7.index t (1 : Fin 2) = (i 1).val / 256 := congrFun ht 1
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 256 ≤ (i 1).val ∧ (i 1).val < win0_7.index t (1 : Fin 2) * 256 + 256; omega

/-- The result array after the run is the pair-score array. -/
theorem final (c : Dev nD) : (dats m 0 c).arrAt 7 cfg0.N = result m c :=
  (dats m 0 c).arrAt_eq_of_cover 7 (result m c) (fun t _ => flushed_eq m c t) cover

/-! ## The run, read -/

/-- Every weakly fair execution of the kernel's program ends with the result array at the pair-score array of the
    argument arrays, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.KernelValue

end
-- ==== Proof.RefValue.lean ====
/-
  The reference computes the pair score.

  The reference projects the rows of `a` and of `b` by `W1`, spreads the two projections over all pairs, and applies the
  three layers to the whole 1024 × 1024 × 64 array at once: a subtraction, a bias and a positive part; a contraction of
  the last axis with `W2`'s rows, a bias and a positive part; a contraction with `W3`'s one row, a bias and a positive
  part; then it drops the trailing unit axis. Read at the entry (n, m), stage by stage, this is the score of the pair
  (n, m): every spread only repeats an entry, and each contraction is the sum over the unit index of the layer below.
-/
import proofs.«135902_j54743653155010_2_alg».proof.Proof.Gen.ReferenceIdeal.Read
import proofs.«135902_j54743653155010_2_alg».proof.Proof.Layers

noncomputable section

open scoped BigOperators

namespace Cert.ReferenceIdeal.RefValue

open Cert.ReferenceIdeal Cert.ReferenceIdeal.Read Cert.PairMlp Idealize.ShloMosaic Idealize.ShloMosaic.ValueIdx

/-- Two indices of a rank-1, rank-2 or rank-3 shape are equal when their coordinates are, one axis at a time. -/
local macro "coords1" : tactic => `(tactic| exact funext fun a => Fin.ext (by match a with | ⟨0, _⟩ => rfl))
local macro "coords2" : tactic => `(tactic| exact funext fun a => Fin.ext (by match a with | ⟨0, _⟩ => rfl | ⟨1, _⟩ => rfl))
local macro "coords3" : tactic => `(tactic| exact funext fun a => Fin.ext (by match a with | ⟨0, _⟩ => rfl | ⟨1, _⟩ => rfl | ⟨2, _⟩ => rfl))

variable (x0 x1 : FVec Ideal S1024x1600 .f32) (x2 : FVec Ideal S64x1600 .f32) (x3 : FVec Ideal S64 .f32)
  (x4 : FVec Ideal S32x64 .f32) (x5 : FVec Ideal S32 .f32) (x6 : FVec Ideal S1x32 .f32) (x7 : FVec Ideal S1 .f32)

/-- The projection of `a`: entry (n, h) is row `n` of `a` against row `h` of `W1`. -/
theorem pa_entry (n : Fin 1024) (h : Fin 64) : val_main_v0 (F := Ideal) x0 x2 (ix2 n h) = proj x0 x2 n h := by
  rw [val_main_v0_apply]
  unfold proj
  refine Finset.sum_congr rfl fun d _ => ?_
  rw [show lidx_main_v0 (ix2 n h) d = ix2 n d by coords2, show ridx_main_v0 (ix2 n h) d = ix2 h d by coords2]

/-- The projection of `b`: entry (m, h) is row `m` of `b` against row `h` of `W1`. -/
theorem pb_entry (m : Fin 1024) (h : Fin 64) : val_main_v1 (F := Ideal) x1 x2 (ix2 m h) = proj x1 x2 m h := by
  rw [val_main_v1_apply]
  unfold proj
  refine Finset.sum_congr rfl fun d _ => ?_
  rw [show lidx_main_v1 (ix2 m h) d = ix2 m d by coords2, show ridx_main_v1 (ix2 m h) d = ix2 h d by coords2]

/-- The first layer at (n, m, h): the positive part of the difference of the two projections plus the bias. -/
theorem layer1_entry (n m : Fin 1024) (h : Fin 64) :
    val_main_v10 (F := Ideal) x0 x1 x2 x3 (ix3 n m h) = pos (proj x0 x2 n h - proj x1 x2 m h + x3 (ix1 h)) := by
  rw [val_main_v10_apply, val_main_v9_apply, val_main_v6_apply, val_main_v4_apply, val_main_v2_apply, val_main_v5_apply,
    val_main_v3_apply, val_main_v8_apply, val_main_v7_apply, val_main_call0_v0_apply, val_main_call0_cst_apply,
    show idx_main_v2 (idx_main_v4 (ix3 n m h)) = ix2 n h by coords2,
    show idx_main_v3 (idx_main_v5 (ix3 n m h)) = ix2 m h by coords2,
    show idx_main_v7 (idx_main_v8 (ix3 n m h)) = ix1 h by coords1, pa_entry, pb_entry]
  rfl

/-- The second layer at (n, m, k): the first layer against row `k` of `W2`, plus the bias, positive part. -/
theorem layer2_entry (n m : Fin 1024) (k : Fin 32) :
    val_main_v15 (F := Ideal) x0 x1 x2 x3 x4 x5 (ix3 n m k)
      = pos ((∑ h : Fin 64, pos (proj x0 x2 n h - proj x1 x2 m h + x3 (ix1 h)) * x4 (ix2 k h)) + x5 (ix1 k)) := by
  rw [val_main_v15_apply, val_main_v14_apply, val_main_v11_apply, val_main_v13_apply, val_main_v12_apply,
    val_main_call1_v0_apply, val_main_call1_cst_apply,
    show idx_main_v12 (idx_main_v13 (ix3 n m k)) = ix1 k by coords1]
  have e : ∀ h : Fin 64, val_main_v10 (F := Ideal) x0 x1 x2 x3 (lidx_main_v11 (ix3 n m k) h) * x4 (ridx_main_v11 (ix3 n m k) h)
      = pos (proj x0 x2 n h - proj x1 x2 m h + x3 (ix1 h)) * x4 (ix2 k h) := fun h => by
    rw [show lidx_main_v11 (ix3 n m k) h = ix3 n m h by coords3, show ridx_main_v11 (ix3 n m k) h = ix2 k h by coords2,
      layer1_entry]
  rw [Finset.sum_congr rfl fun h _ => e h]
  rfl

/-- Dropping the trailing unit axis: entry (n, m) of the result is entry (n, m, 0) before. -/
theorem drop_unit (n m : Fin 1024) : idx_main_v21 (ix2 n m) = ix3 n m (0 : Fin 1) := by
  have hn := n.isLt
  have hm := m.isLt
  funext a
  apply Fin.ext
  match a with
  | ⟨0, _⟩ => show (n.val * 1024 + m.val) / 1024 = n.val; omega
  | ⟨1, _⟩ => show (n.val * 1024 + m.val) / 1 % 1024 = m.val; omega
  | ⟨2, _⟩ => rfl

/-- The reference's result at (n, m) is the score of the pair (n, m). -/
theorem result_entry (n m : Fin 1024) :
    val_main_v21 (F := Ideal) x0 x1 x2 x3 x4 x5 x6 x7 (ix2 n m) = score x0 x1 x2 x3 x4 x5 x6 x7 n m := by
  rw [val_main_v21_apply, drop_unit, val_main_v20_apply, val_main_v19_apply, val_main_v16_apply, val_main_v18_apply,
    val_main_v17_apply, val_main_call2_v0_apply, val_main_call2_cst_apply,
    show idx_main_v17 (idx_main_v18 (ix3 n m (0 : Fin 1))) = ix1 (0 : Fin 1) by coords1]
  have e : ∀ k : Fin 32, val_main_v15 (F := Ideal) x0 x1 x2 x3 x4 x5 (lidx_main_v16 (ix3 n m (0 : Fin 1)) k) * x6 (ridx_main_v16 (ix3 n m (0 : Fin 1)) k)
      = pos ((∑ h : Fin 64, pos (proj x0 x2 n h - proj x1 x2 m h + x3 (ix1 h)) * x4 (ix2 k h)) + x5 (ix1 k)) * x6 (ix2 (0 : Fin 1) k) := fun k => by
    rw [show lidx_main_v16 (ix3 n m (0 : Fin 1)) k = ix3 n m k by coords3,
      show ridx_main_v16 (ix3 n m (0 : Fin 1)) k = ix2 (0 : Fin 1) k by coords2, layer2_entry]
  rw [Finset.sum_congr rfl fun k _ => e k]
  rfl

/-- The reference's whole result is the pair-score array. -/
theorem result_eq : val_main_v21 (F := Ideal) x0 x1 x2 x3 x4 x5 x6 x7 = G x0 x1 x2 x3 x4 x5 x6 x7 := by
  funext i
  obtain ⟨n, m, rfl⟩ : ∃ (n m : Fin 1024), i = ix2 n m := ⟨i 0, i 1, eq_ix2 i⟩
  rw [result_entry, G_apply]

end Cert.ReferenceIdeal.RefValue

end
-- ==== Proof.lean ====
/-
  The certificate of the pairwise three-layer score.

  Both programs project the rows of `a` and of `b` by `W1` and score every pair (n, m) of projected rows by three layers
  (a bias and a positive part; a 64 → 32 linear layer, a bias, a positive part; a 32 → 1 linear layer, a bias, a positive
  part). The reference does it on whole arrays; the kernel's program projects on the host, in another float format, and
  scores the pairs block by block on an 8 × 4 grid, with the second layer as one matrix product over the block's flattened
  pairs. On the extended reals a change of float format is the identity and both are the same finite sums of the same
  products, index by index: no algebraic law is needed, and the precondition is not used.

  * The two kernel programs run, fault nowhere and leave their arguments as they were: the generated frames. The
    reference's frame is its generated run with the result forgotten.
  * The idealization rewrote no operation, so there is nothing to preserve.
  * The kernel's result array ends holding the pair-score array of its arguments (Proof/KernelValue.lean, from what one
    grid point computes at an entry, Proof/BlockValue.lean, and what the region finds in its input arrays,
    Proof/Staged.lean); the reference's result is the same array of its arguments (Proof/RefValue.lean); the arguments
    agree.
-/
import proofs.«135902_j54743653155010_2_alg».proof.Defs
import proofs.«135902_j54743653155010_2_alg».proof.Proof.Gen.Kernel
import proofs.«135902_j54743653155010_2_alg».proof.Proof.Gen.Kernel.Skeleton
import proofs.«135902_j54743653155010_2_alg».proof.Proof.Gen.Kernel.Launch
import proofs.«135902_j54743653155010_2_alg».proof.Proof.Gen.Kernel.Points
import proofs.«135902_j54743653155010_2_alg».proof.Proof.Gen.Kernel.Frame
import proofs.«135902_j54743653155010_2_alg».proof.Proof.Gen.KernelIdeal
import proofs.«135902_j54743653155010_2_alg».proof.Proof.Gen.KernelIdeal.Skeleton
import proofs.«135902_j54743653155010_2_alg».proof.Proof.Gen.KernelIdeal.Launch
import proofs.«135902_j54743653155010_2_alg».proof.Proof.Gen.KernelIdeal.Points
import proofs.«135902_j54743653155010_2_alg».proof.Proof.Gen.KernelIdeal.Frame
import proofs.«135902_j54743653155010_2_alg».proof.Proof.Gen.KernelIdeal.Value
import proofs.«135902_j54743653155010_2_alg».proof.Proof.Gen.ReferenceIdeal
import proofs.«135902_j54743653155010_2_alg».proof.Proof.Gen.ReferenceIdeal.Run
import proofs.«135902_j54743653155010_2_alg».proof.Proof.Gen.ReferenceIdeal.Read
import proofs.«135902_j54743653155010_2_alg».proof.Proof.Gen.Pre_finite_inputs
import Idealize.ShloMosaic.Adequacy
import Idealize.ShloMosaic.Init

import proofs.«135902_j54743653155010_2_alg».proof.Proof.KernelValue
import proofs.«135902_j54743653155010_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the pair-score array of the kernel's arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v21_eq, Cert.ReferenceIdeal.RefValue.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
